-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩

class Facts : Prop where
  bcast_S_S611x4 : S_.BroadcastsInDim S611x4 (![] : Fin 0 → Fin S611x4.rank)
  reducesTo_S611x4_S_d0_1 : S611x4.ReducesTo [0, 1] S_
  h_S_ : 0 < S_.numel
  bcast_S_S193610x4 : S_.BroadcastsInDim S193610x4 (![] : Fin 0 → Fin S193610x4.rank)
  reducesTo_S193610x4_S_d0_1 : S193610x4.ReducesTo [0, 1] S_
  bcast_S_S50x8 : S_.BroadcastsInDim S50x8 (![] : Fin 0 → Fin S50x8.rank)
  reducesTo_S50x8_S_d0_1 : S50x8.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S20x50 .f32) (main_arg7 : FVec F S20 .f32) (main_arg8 : FVec F S1x20 .f32) (main_arg9 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S20x50 .f32 := Host.absf main_arg6
  let main_cst_6 : FVec F S_ .f32 := constant S_ .f32 0x7F800000#32
  let main_v20 : FVec F S20x50 .f32 := broadcastInDim S20x50 ![] bcast_S_S20x50 main_cst_6
  let main_v21 : IVec S20x50 1 := cmpf .olt main_v19 main_v20
  let main_c_7 : IVec S_ 1 := constantI S_ 1 1#1
  let main_v22 : IVec S_ 1 := (fun x v => Host.reduce IntOp.andi x v reducesTo_S20x50_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S1x20 .f32 := Host.absf main_arg8
  let main_cst_10 : FVec F S_ .f32 := constant S_ .f32 0x7F800000#32
  let main_v30 : FVec F S1x20 .f32 := broadcastInDim S1x20 ![] bcast_S_S1x20 main_cst_10
  let main_v31 : IVec S1x20 1 := cmpf .olt main_v29 main_v30
  let main_c_11 : IVec S_ 1 := constantI S_ 1 1#1
  let main_v32 : IVec S_ 1 := (fun x v => Host.reduce IntOp.andi x v reducesTo_S1x20_S_d0_1 h_S_) main_v31 main_c_11
  let main_v33 : IVec S_ 1 := andi main_v28 main_v32
  fn_part2 (F := F) main_arg9 main_v33

def fn {F : FTy → Type} [FloatOps F] (main_arg0 : IVec S2097152 32) (main_arg1 : IVec S2097152 32) (main_arg2 : FVec F S611x4 .f32) (main_arg3 : FVec F S193610x4 .f32) (main_arg4 : FVec F S50x8 .f32) (main_arg5 : FVec F S50 .f32) (main_arg6 : FVec F S20x50 .f32) (main_arg7 : FVec F S20 .f32) (main_arg8 : FVec F S1x20 .f32) (main_arg9 : FVec F S1 .f32) : IVec S_ 1 :=
  let main_v0 : FVec F S611x4 .f32 := Host.absf main_arg2
  let main_cst : FVec F S_ .f32 := constant S_ .f32 0x7F800000#32
  let main_v1 : FVec F S611x4 .f32 := broadcastInDim S611x4 ![] bcast_S_S611x4 main_cst
  let main_v2 : IVec S611x4 1 := cmpf .olt main_v0 main_v1
  let main_c : IVec S_ 1 := constantI S_ 1 1#1
  let main_v3 : IVec S_ 1 := (fun x v => Host.reduce IntOp.andi x v reducesTo_S611x4_S_d0_1 h_S_) main_v2 main_c
  let main_v4 : FVec F S193610x4 .f32 := Host.absf main_arg3
  let main_cst_0 : FVec F S_ .f32 := constant S_ .f32 0x7F800000#32
  let main_v5 : FVec F S193610x4 .f32 := broadcastInDim S193610x4 ![] bcast_S_S193610x4 main_cst_0
  let main_v6 : IVec S193610x4 1 := cmpf .olt main_v4 main_v5
  let main_c_1 : IVec S_ 1 := constantI S_ 1 1#1
  let main_v7 : IVec S_ 1 := (fun x v => Host.reduce IntOp.andi x v reducesTo_S193610x4_S_d0_1 h_S_) main_v6 main_c_1
  let main_v8 : IVec S_ 1 := andi main_v3 main_v7
  let main_v9 : FVec F S50x8 .f32 := Host.absf main_arg4
  let main_cst_2 : FVec F S_ .f32 := constant S_ .f32 0x7F800000#32
  let main_v10 : FVec F S50x8 .f32 := broadcastInDim S50x8 ![] bcast_S_S50x8 main_cst_2
  let main_v11 : IVec S50x8 1 := cmpf .olt main_v9 main_v10
  let main_c_3 : IVec S_ 1 := constantI S_ 1 1#1
  let main_v12 : IVec S_ 1 := (fun x v => Host.reduce IntOp.andi x v reducesTo_S50x8_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg6 main_arg7 main_arg8 main_arg9 main_v13 main_v16
-- ==== Kernel.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S4x611 : Shape := ⟨2, ![4, 611]⟩
abbrev S_ : Shape := ⟨0, ![]⟩
abbrev S2097152x1 : Shape := ⟨2, ![2097152, 1]⟩
abbrev S4x2097152 : Shape := ⟨2, ![4, 2097152]⟩
abbrev S4x193610 : Shape := ⟨2, ![4, 193610]⟩
abbrev S8x2097152 : Shape := ⟨2, ![8, 2097152]⟩
abbrev S50x1 : Shape := ⟨2, ![50, 1]⟩
abbrev S20x1 : Shape := ⟨2, ![20, 1]⟩
abbrev S1x1 : Shape := ⟨2, ![1, 1]⟩
abbrev S1x2097152 : Shape := ⟨2, ![1, 2097152]⟩
abbrev S8x32768 : Shape := ⟨2, ![8, 32768]⟩
abbrev S1x32768 : Shape := ⟨2, ![1, 32768]⟩
abbrev S50x32768 : Shape := ⟨2, ![50, 32768]⟩
abbrev S20x32768 : Shape := ⟨2, ![20, 32768]⟩

abbrev nBuf : Space → Nat
  | .hbm => 40
  | .vmem => 10
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S611x4, .f32⟩
  | .hbm, ⟨3, _⟩ => ⟨S193610x4, .f32⟩
  | .hbm, ⟨4, _⟩ => ⟨S50x8, .f32⟩
  | .hbm, ⟨5, _⟩ => ⟨S50, .f32⟩
  | .hbm, ⟨6, _⟩ => ⟨S20x50, .f32⟩
  | .hbm, ⟨7, _⟩ => ⟨S20, .f32⟩
  | .hbm, ⟨8, _⟩ => ⟨S1x20, .f32⟩
  | .hbm, ⟨9, _⟩ => ⟨S1, .f32⟩
  | .hbm, ⟨10, _⟩ => ⟨S4x611, .f32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S4x2097152, .f32⟩
  | .hbm, ⟨20, _⟩ => ⟨S4x193610, .f32⟩
  | .hbm, ⟨21, _⟩ => ⟨S_, .i32⟩
  | .hbm, ⟨22, _⟩ => ⟨S2097152, .i32⟩
  | .hbm, ⟨23, _⟩ => ⟨S2097152, .i1⟩
  | .hbm, ⟨24, _⟩ => ⟨S_, .i32⟩
  | .hbm, ⟨25, _⟩ => ⟨S2097152, .i32⟩
  | .hbm, ⟨26, _⟩ => ⟨S2097152, .i32⟩
  | .hbm, ⟨27, _⟩ => ⟨S2097152, .i32⟩
  | .hbm, ⟨28, _⟩ => ⟨S2097152x1, .i32⟩
  | .hbm, ⟨29, _⟩ => ⟨S4x2097152, .f32⟩
  | .hbm, ⟨30, _⟩ => ⟨S8x2097152, .f32⟩
  | .hbm, ⟨31, _⟩ => ⟨S8x2097152, .bf16⟩
  | .hbm, ⟨32, _⟩ => ⟨S50x8, .bf16⟩
  | .hbm, ⟨33, _⟩ => ⟨S20x50, .bf16⟩
  | .hbm, ⟨34, _⟩ => ⟨S1x20, .bf16⟩
  | .hbm, ⟨35, _⟩ => ⟨S50x1, .f32⟩
  | .hbm, ⟨36, _⟩ => ⟨S20x1, .f32⟩
  | .hbm, ⟨37, _⟩ => ⟨S1x1, .f32⟩
  | .hbm, ⟨38, _⟩ => ⟨S1x2097152, .f32⟩
  | .hbm, ⟨39, _⟩ => ⟨S2097152, .f32⟩
  | .local _ .vmem, ⟨0, _⟩ => ⟨S8x32768, .bf16⟩
  | .local _ .vmem, ⟨1, _⟩ => ⟨S8x32768, .bf16⟩
  | .local _ .vmem, ⟨2, _⟩ => ⟨S50x8, .bf16⟩
  | .local _ .vmem, ⟨3, _⟩ => ⟨S50x1, .f32⟩
  | .local _ .vmem, ⟨4, _⟩ => ⟨S20x50, .bf16⟩
  | .local _ .vmem, ⟨5, _⟩ => ⟨S20x1, .f32⟩
  | .local _ .vmem, ⟨6, _⟩ => ⟨S1x20, .bf16⟩
  | .local _ .vmem, ⟨7, _⟩ => ⟨S1x1, .f32⟩
  | .local _ .vmem, ⟨8, _⟩ => ⟨S1x32768, .f32⟩
  | .local _ .vmem, ⟨9, _⟩ => ⟨S1x32768, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S611x4_S4x611_1_0 : S611x4.Transposes [1, 0] S4x611
  bcast_S_S2097152 : S_.BroadcastsInDim S2097152 (![] : Fin 0 → Fin S2097152.rank)
  bcast_S2097152_S2097152x1_0 : S2097152.BroadcastsInDim S2097152x1 (![0] : Fin 1 → Fin S2097152x1.rank)
  transposes_S193610x4_S4x193610_1_0 : S193610x4.Transposes [1, 0] S4x193610
  concatenates_S4x2097152_S4x2097152_S8x2097152_d0 : Shape.Concatenates [S4x2097152, S4x2097152] S8x2097152 0
  bitsLt_bf16_f32 : FTy.bits .bf16 < FTy.bits .f32
  shapeCasts_S50_S50x1 : S50.ShapeCasts S50x1
  shapeCasts_S20_S20x1 : S20.ShapeCasts S20x1
  shapeCasts_S1_S1x1 : S1.ShapeCasts S1x1
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  inb_S50x8_S50x8_0_0 : ∀ a, (![0, 0] : Fin 2 → Nat) a + S50x8.size a ≤ S50x8.size a
  h_S50x8 : 0 < S50x8.numel
  shapeCasts_S50x8_S50x8 : S50x8.ShapeCasts S50x8
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x32768 : S50x1.Broadcasts S50x32768
  inb_S20x50_S20x50_0_0 : ∀ a, (![0, 0] : Fin 2 → Nat) a + S20x50.size a ≤ S20x50.size a
  h_S20x50 : 0 < S20x50.numel
  shapeCasts_S20x50_S20x50 : S20x50.ShapeCasts S20x50
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x32768 : S20x1.Broadcasts S20x32768
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  shapeCasts_S1x2097152_S2097152 : S1x2097152.ShapeCasts S2097152
  gather_S4x611_S2097152x1_S4x2097152_0_1_n_n_1_1_41_wf : GatherDims.WF S4x611 S2097152x1 S4x2097152 [0] [1] [] [1] [] 1 ![4, 1]
  gather_S4x193610_S2097152x1_S4x2097152_0_1_n_n_1_1_41_wf : GatherDims.WF S4x193610 S2097152x1 S4x2097152 [0] [1] [] [1] [] 1 ![4, 1]
  dot_S50x8_S8x32768_S50x32768_1_0_0_1_n_n_wf : DotDims.WF S50x8 S8x32768 S50x32768 [1] [0] [0] [1] [] []
  dot_S20x50_S50x32768_S20x32768_1_0_0_1_n_n_wf : DotDims.WF S20x50 S50x32768 S20x32768 [1] [0] [0] [1] [] []
  dot_S1x20_S20x32768_S1x32768_1_0_0_1_n_n_wf : DotDims.WF S1x20 S20x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S8x2097152.size a
  hwx0_0 : ∀ i : grid0.Coords, EltTy.bits .bf16 = 32 ∨ (Rect.block (s := S8x2097152) S8x32768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x8.size a ≤ S50x8.size a
  hwx0_1 : ∀ i : grid0.Coords, EltTy.bits .bf16 = 32 ∨ (Rect.block (s := S50x8) S50x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x1.size a ≤ S50x1.size a
  hwx0_2 : ∀ i : grid0.Coords, EltTy.bits .f32 = 32 ∨ (Rect.block (s := S50x1) S50x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x50.size a ≤ S20x50.size a
  hwx0_3 : ∀ i : grid0.Coords, EltTy.bits .bf16 = 32 ∨ (Rect.block (s := S20x50) S20x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x1.size a ≤ S20x1.size a
  hwx0_4 : ∀ i : grid0.Coords, EltTy.bits .f32 = 32 ∨ (Rect.block (s := S20x1) S20x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .bf16 = 32 ∨ (Rect.block (s := S1x20) S1x20.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32768.size a ≤ S1x2097152.size a
  hwx0_7 : ∀ i : grid0.Coords, EltTy.bits .f32 = 32 ∨ (Rect.block (s := S1x2097152) S1x32768.size (cc0_transform_7 i) (hinb0_7 i)).WholeWords (EltTy.packing .f32)

variable [Facts₀]

def gather_S4x611_S2097152x1_S4x2097152_0_1_n_n_1_1_41 : GatherDims S4x611 S2097152x1 S4x2097152 where
  offsetDims := [0]
  collapsedSliceDims := [1]
  operandBatchingDims := []
  startIndicesBatchingDims := []
  startIndexMap := [1]
  indexVectorDim := 1
  sliceSizes := ![4, 1]
  wf := gather_S4x611_S2097152x1_S4x2097152_0_1_n_n_1_1_41_wf
def gather_S4x193610_S2097152x1_S4x2097152_0_1_n_n_1_1_41 : GatherDims S4x193610 S2097152x1 S4x2097152 where
  offsetDims := [0]
  collapsedSliceDims := [1]
  operandBatchingDims := []
  startIndicesBatchingDims := []
  startIndexMap := [1]
  indexVectorDim := 1
  sliceSizes := ![4, 1]
  wf := gather_S4x193610_S2097152x1_S4x2097152_0_1_n_n_1_1_41_wf
def dot_S50x8_S8x32768_S50x32768_1_0_0_1_n_n : DotDims S50x8 S8x32768 S50x32768 where
  lhsContracting := [1]
  rhsContracting := [0]
  lhsNonContracting := [0]
  rhsNonContracting := [1]
  lhsBatch := []
  rhsBatch := []
  wf := dot_S50x8_S8x32768_S50x32768_1_0_0_1_n_n_wf
def dot_S20x50_S50x32768_S20x32768_1_0_0_1_n_n : DotDims S20x50 S50x32768 S20x32768 where
  lhsContracting := [1]
  rhsContracting := [0]
  lhsNonContracting := [0]
  rhsNonContracting := [1]
  lhsBatch := []
  rhsBatch := []
  wf := dot_S20x50_S50x32768_S20x32768_1_0_0_1_n_n_wf
def dot_S1x20_S20x32768_S1x32768_1_0_0_1_n_n : DotDims S1x20 S20x32768 S1x32768 where
  lhsContracting := [1]
  rhsContracting := [0]
  lhsNonContracting := [0]
  rhsNonContracting := [1]
  lhsBatch := []
  rhsBatch := []
  wf := dot_S1x20_S20x32768_S1x32768_1_0_0_1_n_n_wf

abbrev win0_0 : Pipeline.Window sig grid0 :=
  Pipeline.Window.ofSpec (Memref.whole main_v17) S8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S50x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S50x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S20x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S20x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩
abbrev S2097152x1 : Shape := ⟨2, ![2097152, 1]⟩
abbrev S2097152x4 : Shape := ⟨2, ![2097152, 4]⟩
abbrev S2097152x8 : Shape := ⟨2, ![2097152, 8]⟩
abbrev S8x50 : Shape := ⟨2, ![8, 50]⟩
abbrev S2097152x50 : Shape := ⟨2, ![2097152, 50]⟩
abbrev S1x50 : Shape := ⟨2, ![1, 50]⟩
abbrev S50x20 : Shape := ⟨2, ![50, 20]⟩
abbrev S2097152x20 : Shape := ⟨2, ![2097152, 20]⟩
abbrev S20x1 : Shape := ⟨2, ![20, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S611x4, .f32⟩
  | .hbm, ⟨3, _⟩ => ⟨S193610x4, .f32⟩
  | .hbm, ⟨4, _⟩ => ⟨S50x8, .f32⟩
  | .hbm, ⟨5, _⟩ => ⟨S50, .f32⟩
  | .hbm, ⟨6, _⟩ => ⟨S20x50, .f32⟩
  | .hbm, ⟨7, _⟩ => ⟨S20, .f32⟩
  | .hbm, ⟨8, _⟩ => ⟨S1x20, .f32⟩
  | .hbm, ⟨9, _⟩ => ⟨S1, .f32⟩
  | .hbm, ⟨10, _⟩ => ⟨S_, .i32⟩
  | .hbm, ⟨11, _⟩ => ⟨S2097152, .i32⟩
  | .hbm, ⟨12, _⟩ => ⟨S2097152, .i1⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S2097152, .i32⟩
  | .hbm, ⟨17, _⟩ => ⟨S2097152x1, .i32⟩
  | .hbm, ⟨18, _⟩ => ⟨S2097152x4, .f32⟩
  | .hbm, ⟨19, _⟩ => ⟨S_, .i32⟩
  | .hbm, ⟨20, _⟩ => ⟨S2097152, .i32⟩
  | .hbm, ⟨21, _⟩ => ⟨S2097152, .i1⟩
  | .hbm, ⟨22, _⟩ => ⟨S_, .i32⟩
  | .hbm, ⟨23, _⟩ => ⟨S2097152, .i32⟩
  | .hbm, ⟨24, _⟩ => ⟨S2097152, .i32⟩
  | .hbm, ⟨25, _⟩ => ⟨S2097152, .i32⟩
  | .hbm, ⟨26, _⟩ => ⟨S2097152x1, .i32⟩
  | .hbm, ⟨27, _⟩ => ⟨S2097152x4, .f32⟩
  | .hbm, ⟨28, _⟩ => ⟨S2097152x8, .f32⟩
  | .hbm, ⟨29, _⟩ => ⟨S8x50, .f32⟩
  | .hbm, ⟨30, _⟩ => ⟨S2097152x50, .f32⟩
  | .hbm, ⟨31, _⟩ => ⟨S1x50, .f32⟩
  | .hbm, ⟨32, _⟩ => ⟨S2097152x50, .f32⟩
  | .hbm, ⟨33, _⟩ => ⟨S2097152x50, .f32⟩
  | .hbm, ⟨34, _⟩ => ⟨S_, .f32⟩
  | .hbm, ⟨35, _⟩ => ⟨S2097152x50, .f32⟩
  | .hbm, ⟨36, _⟩ => ⟨S2097152x50, .f32⟩
  | .hbm, ⟨37, _⟩ => ⟨S50x20, .f32⟩
  | .hbm, ⟨38, _⟩ => ⟨S2097152x20, .f32⟩
  | .hbm, ⟨39, _⟩ => ⟨S1x20, .f32⟩
  | .hbm, ⟨40, _⟩ => ⟨S2097152x20, .f32⟩
  | .hbm, ⟨41, _⟩ => ⟨S2097152x20, .f32⟩
  | .hbm, ⟨42, _⟩ => ⟨S_, .f32⟩
  | .hbm, ⟨43, _⟩ => ⟨S2097152x20, .f32⟩
  | .hbm, ⟨44, _⟩ => ⟨S2097152x20, .f32⟩
  | .hbm, ⟨45, _⟩ => ⟨S20x1, .f32⟩
  | .hbm, ⟨46, _⟩ => ⟨S2097152x1, .f32⟩
  | .hbm, ⟨47, _⟩ => ⟨S1x1, .f32⟩
  | .hbm, ⟨48, _⟩ => ⟨S2097152x1, .f32⟩
  | .hbm, ⟨49, _⟩ => ⟨S2097152x1, .f32⟩
  | .hbm, ⟨50, _⟩ => ⟨S2097152, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x4_S2097152x4_S2097152x8_d1 : Shape.Concatenates [S2097152x4, S2097152x4] S2097152x8 1
  transposes_S50x8_S8x50_1_0 : S50x8.Transposes [1, 0] S8x50
  bcast_S50_S1x50_1 : S50.BroadcastsInDim S1x50 (![1] : Fin 1 → Fin S1x50.rank)
  bcast_S1x50_S2097152x50_0_1 : S1x50.BroadcastsInDim S2097152x50 (![0, 1] : Fin 2 → Fin S2097152x50.rank)
  bcast_S_S2097152x50 : S_.BroadcastsInDim S2097152x50 (![] : Fin 0 → Fin S2097152x50.rank)
  transposes_S20x50_S50x20_1_0 : S20x50.Transposes [1, 0] S50x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  bcast_S_S2097152x20 : S_.BroadcastsInDim S2097152x20 (![] : Fin 0 → Fin S2097152x20.rank)
  transposes_S1x20_S20x1_1_0 : S1x20.Transposes [1, 0] S20x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2097152 : S2097152x1.ShapeCasts S2097152
  gather_S611x4_S2097152x1_S2097152x4_1_0_n_n_0_1_14_wf : GatherDims.WF S611x4 S2097152x1 S2097152x4 [1] [0] [] [0] [] 1 ![1, 4]
  gather_S193610x4_S2097152x1_S2097152x4_1_0_n_n_0_1_14_wf : GatherDims.WF S193610x4 S2097152x1 S2097152x4 [1] [0] [] [0] [] 1 ![1, 4]
  dot_S2097152x8_S8x50_S2097152x50_1_0_0_1_n_n_wf : DotDims.WF S2097152x8 S8x50 S2097152x50 [1] [0] [0] [1] [] []
  dot_S2097152x50_S50x20_S2097152x20_1_0_0_1_n_n_wf : DotDims.WF S2097152x50 S50x20 S2097152x20 [1] [0] [0] [1] [] []
  dot_S2097152x20_S20x1_S2097152x1_1_0_0_1_n_n_wf : DotDims.WF S2097152x20 S20x1 S2097152x1 [1] [0] [0] [1] [] []

variable [Facts₀]

def gather_S611x4_S2097152x1_S2097152x4_1_0_n_n_0_1_14 : GatherDims S611x4 S2097152x1 S2097152x4 where
  offsetDims := [1]
  collapsedSliceDims := [0]
  operandBatchingDims := []
  startIndicesBatchingDims := []
  startIndexMap := [0]
  indexVectorDim := 1
  sliceSizes := ![1, 4]
  wf := gather_S611x4_S2097152x1_S2097152x4_1_0_n_n_0_1_14_wf
def gather_S193610x4_S2097152x1_S2097152x4_1_0_n_n_0_1_14 : GatherDims S193610x4 S2097152x1 S2097152x4 where
  offsetDims := [1]
  collapsedSliceDims := [0]
  operandBatchingDims := []
  startIndicesBatchingDims := []
  startIndexMap := [0]
  indexVectorDim := 1
  sliceSizes := ![1, 4]
  wf := gather_S193610x4_S2097152x1_S2097152x4_1_0_n_n_0_1_14_wf
def dot_S2097152x8_S8x50_S2097152x50_1_0_0_1_n_n : DotDims S2097152x8 S8x50 S2097152x50 where
  lhsContracting := [1]
  rhsContracting := [0]
  lhsNonContracting := [0]
  rhsNonContracting := [1]
  lhsBatch := []
  rhsBatch := []
  wf := dot_S2097152x8_S8x50_S2097152x50_1_0_0_1_n_n_wf
def dot_S2097152x50_S50x20_S2097152x20_1_0_0_1_n_n : DotDims S2097152x50 S50x20 S2097152x20 where
  lhsContracting := [1]
  rhsContracting := [0]
  lhsNonContracting := [0]
  rhsNonContracting := [1]
  lhsBatch := []
  rhsBatch := []
  wf := dot_S2097152x50_S50x20_S2097152x20_1_0_0_1_n_n_wf
def dot_S2097152x20_S20x1_S2097152x1_1_0_0_1_n_n : DotDims S2097152x20 S20x1 S2097152x1 where
  lhsContracting := [1]
  rhsContracting := [0]
  lhsNonContracting := [0]
  rhsNonContracting := [1]
  lhsBatch := []
  rhsBatch := []
  wf := dot_S2097152x20_S20x1_S2097152x1_1_0_0_1_n_n_wf

class Facts : Prop extends Facts₀ where

variable [Facts]
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.Spec.lean ====
/-
  The scorer, as one function of its inputs.

  A sample `b` carries a user number and an item number. Its feature vector has eight entries: the four numbers of the
  user's row in the user table, then the four numbers of the item's row in the item table. A row number is found from the
  stored integer as array indexing does it: a negative integer counts once from the end of the table, and the result is
  clamped into the table (`rowOf`).

  The score of a feature vector `x` is that of a three-layer perceptron:

    h1 j = max (Σ i, W1 j i * x i + β1 j) 0        (50 units)
    h2 k = max (Σ j, W2 k j * h1 j + β2 k) 0       (20 units)
    score = Σ k, W3 k * h2 k + β3

  over the extended reals, where `0` is what the zero word denotes. `scores` is the array of all samples' scores.
  The only law needed to compare two programs computing this is that a product may be written either way round inside
  each sum (`layer_comm`, `readout_comm`): no sum is split or regrouped, so no finiteness is asked of the inputs.
-/
import Idealize.ShloMosaic.Lib.ValueIdx
import proofs.«102440_j790273982929_2_alg».proof.Proof.LibGatherRows

noncomputable section

namespace Cert.Scorer

open Idealize.ShloMosaic Idealize.ShloMosaic.ValueIdx Idealize.ShloMosaic.GatherRows

/-! ## Which row an integer names -/

/-- A negative index counts from the end of a table of `n` rows, once; any other index is kept. -/
def fromEnd (n v : BitVec 32) : BitVec 32 := Scalar.select (IntOp.cmpi .slt v 0#32) (IntOp.addi v n) v

/-- The row of a table of `N` rows that the stored integer `v` names. -/
def rowOf (N : Nat) (v : BitVec 32) : Nat := clampRow N (fromEnd (BitVec.ofNat 32 N) v)

theorem rowOf_lt {N : Nat} (hN : 0 < N) (v : BitVec 32) : rowOf N v < N := clampRow_lt hN _

/-! ## The feature vector of a sample -/

/-- Entry `i` of sample `b`'s feature vector: the user's row for `i < 4`, the item's row after. -/
def feature (users items : (⟨1, ![2097152]⟩ : Shape).Idx → BitVec 32)
    (U : (⟨2, ![611, 4]⟩ : Shape).Idx → EReal) (V : (⟨2, ![193610, 4]⟩ : Shape).Idx → EReal)
    (b : Fin 2097152) (i : Fin 8) : EReal :=
  if h : i.val < 4 then U (ix2 (⟨rowOf 611 (users (ix1 b)), rowOf_lt (by decide) _⟩ : Fin 611) (⟨i.val, h⟩ : Fin 4))
  else V (ix2 (⟨rowOf 193610 (items (ix1 b)), rowOf_lt (by decide) _⟩ : Fin 193610) (⟨i.val - 4, by omega⟩ : Fin 4))

/-! ## The perceptron -/

/-- One hidden layer at one sample: each unit's weights against the input, plus its bias, floored at zero. -/
def layer {n k : Nat} (W : Fin k → Fin n → EReal) (β : Fin k → EReal) (x : Fin n → EReal) (j : Fin k) : EReal :=
  max ((∑ i : Fin n, W j i * x i) + β j) (Ideal.ofBits .f32 0x00000000#32)

/-- The read-out: one unit, no floor. -/
def readout {n : Nat} (W : Fin n → EReal) (β : EReal) (x : Fin n → EReal) : EReal :=
  (∑ i : Fin n, W i * x i) + β

/-- The score of one feature vector. -/
def score (W1 : Fin 50 → Fin 8 → EReal) (β1 : Fin 50 → EReal) (W2 : Fin 20 → Fin 50 → EReal) (β2 : Fin 20 → EReal)
    (W3 : Fin 20 → EReal) (β3 : EReal) (x : Fin 8 → EReal) : EReal :=
  readout W3 β3 (layer W2 β2 (layer W1 β1 x))

/-- A layer whose products are written input first is the same layer. -/
theorem layer_comm {n k : Nat} (W : Fin k → Fin n → EReal) (β : Fin k → EReal) (x : Fin n → EReal) (j : Fin k) :
    max ((∑ i : Fin n, x i * W j i) + β j) (Ideal.ofBits .f32 0x00000000#32) = layer W β x j := by
  unfold layer
  rw [Finset.sum_congr rfl fun i _ => mul_comm (x i) (W j i)]

/-- The read-out with its products written input first is the same read-out. -/
theorem readout_comm {n : Nat} (W : Fin n → EReal) (β : EReal) (x : Fin n → EReal) :
    (∑ i : Fin n, x i * W i) + β = readout W β x := by
  unfold readout
  rw [Finset.sum_congr rfl fun i _ => mul_comm (x i) (W i)]

/-! ## All samples -/

/-- Every sample's score, from the ten input arrays. -/
def scores (users items : (⟨1, ![2097152]⟩ : Shape).Idx → BitVec 32)
    (U : (⟨2, ![611, 4]⟩ : Shape).Idx → EReal) (V : (⟨2, ![193610, 4]⟩ : Shape).Idx → EReal)
    (W1 : (⟨2, ![50, 8]⟩ : Shape).Idx → EReal) (b1 : (⟨1, ![50]⟩ : Shape).Idx → EReal)
    (W2 : (⟨2, ![20, 50]⟩ : Shape).Idx → EReal) (b2 : (⟨1, ![20]⟩ : Shape).Idx → EReal)
    (W3 : (⟨2, ![1, 20]⟩ : Shape).Idx → EReal) (b3 : (⟨1, ![1]⟩ : Shape).Idx → EReal) :
    (⟨1, ![2097152]⟩ : Shape).Idx → EReal := fun s =>
  score (fun j i => W1 (ix2 j i)) (fun j => b1 (ix1 j)) (fun k j => W2 (ix2 k j)) (fun k => b2 (ix1 k))
    (fun k => W3 (ix2 (0 : Fin 1) k)) (b3 (ix1 (0 : Fin 1))) (feature users items U V (s 0))

end Cert.Scorer

end
-- ==== Proof.RefFeature.lean ====
/-
  The reference's feature array is the samples' feature vectors.

  The reference looks the user's and the item's rows up in the two tables (rows kept as rows) and joins them side by
  side, so entry `(b, i)` of the joined array is entry `i` of sample `b`'s feature vector. The start index of each
  lookup is the stored integer counted from the end of the table when negative.
-/
import proofs.«102440_j790273982929_2_alg».proof.Proof.Gen.ReferenceIdeal.Read
import proofs.«102440_j790273982929_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows Cert.Scorer

/-- The user lookup's start index for sample `b`. -/
theorem users_start (x0 : S2097152.Idx → BitVec 32) (b : Fin 2097152) :
    val_main_v5 (F := Ideal) x0 (ix2 b (0 : Fin 1)) = fromEnd 611#32 (x0 (ix1 b)) := by
  have e : idx_main_v5 (ix2 b (0 : Fin 1)) = ix1 b := funext fun a => Fin.ext (by match a with | ⟨0, _⟩ => rfl)
  rw [val_main_v5_apply, e, val_main_v4_apply, val_main_v1_apply, val_main_v3_apply, val_main_v0_apply,
    val_main_v2_apply, val_main_c_apply, val_main_c_0_apply]
  rfl

/-- The item lookup's start index for sample `b`. -/
theorem items_start (x1 : S2097152.Idx → BitVec 32) (b : Fin 2097152) :
    val_main_v12 (F := Ideal) x1 (ix2 b (0 : Fin 1)) = fromEnd 193610#32 (x1 (ix1 b)) := by
  have e : idx_main_v12 (ix2 b (0 : Fin 1)) = ix1 b := funext fun a => Fin.ext (by match a with | ⟨0, _⟩ => rfl)
  rw [val_main_v12_apply, e, val_main_v11_apply, val_main_v8_apply, val_main_v10_apply, val_main_v7_apply,
    val_main_v9_apply, val_main_c_1_apply, val_main_c_2_apply]
  rfl

/-- Entry `(b, i)` of the joined array is entry `i` of sample `b`'s feature vector. -/
theorem feature_eq (x0 x1 : S2097152.Idx → BitVec 32) (x2 : S611x4.Idx → EReal) (x3 : S193610x4.Idx → EReal)
    (b : Fin 2097152) (i : Fin 8) :
    val_main_v14 (F := Ideal) x0 x1 x2 x3 (ix2 b i) = feature x0 x1 x2 x3 b i := by
  unfold val_main_v14 feature
  by_cases h : i.val < 4
  · rw [dif_pos h]
    rw [concatenate_pair_apply_left (t := S2097152x8) (s₁ := S2097152x4) (s₂ := S2097152x4) (1 : Fin 2)
      (val_main_v6 (F := Ideal) x0 x2) (val_main_v13 (F := Ideal) x1 x3)
      concatenates_S2097152x4_S2097152x4_S2097152x8_d1 (ix2 b i) rfl
      (ix2 b (⟨i.val, h⟩ : Fin 4)) (fun d => by match d with | ⟨0, _⟩ => rfl | ⟨1, _⟩ => rfl)]
    unfold val_main_v6
    refine (gather_rows_apply (N := 611) (C := 4) (B := 2097152) (by decide)
      gather_S611x4_S2097152x1_S2097152x4_1_0_n_n_0_1_14_wf x2 (val_main_v5 (F := Ideal) x0) b ⟨i.val, h⟩).trans ?_
    rw [users_start]
    rfl
  · rw [dif_neg h]
    have hi : i.val < 8 := i.isLt
    rw [concatenate_pair_apply_right (t := S2097152x8) (s₁ := S2097152x4) (s₂ := S2097152x4) (1 : Fin 2)
      (val_main_v6 (F := Ideal) x0 x2) (val_main_v13 (F := Ideal) x1 x3)
      concatenates_S2097152x4_S2097152x4_S2097152x8_d1 (ix2 b i) rfl rfl
      (ix2 b (⟨i.val - 4, by omega⟩ : Fin 4))
      (fun d hd => by
        match d with
        | ⟨0, _⟩ => rfl
        | ⟨1, _⟩ => exact absurd rfl hd)
      (by show i.val - 4 + 4 = i.val; omega)]
    unfold val_main_v13
    refine (gather_rows_apply (N := 193610) (C := 4) (B := 2097152) (by decide)
      gather_S193610x4_S2097152x1_S2097152x4_1_0_n_n_0_1_14_wf x3 (val_main_v12 (F := Ideal) x1) b ⟨i.val - 4, by omega⟩).trans ?_
    rw [items_start]
    rfl

end Cert.ReferenceIdeal.RefValue

end
-- ==== Proof.RefValue.lean ====
/-
  The reference computes the scorer.

  Its three dense layers multiply each sample's vector by the transposed weights, so its products are written input
  first; read index by index each layer is the scorer's layer with the products the other way round.
-/
import proofs.«102440_j790273982929_2_alg».proof.Proof.RefFeature

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows Cert.Scorer

variable (x0 x1 : S2097152.Idx → BitVec 32) (x2 : S611x4.Idx → EReal) (x3 : S193610x4.Idx → EReal)
  (x4 : S50x8.Idx → EReal) (x5 : S50.Idx → EReal) (x6 : S20x50.Idx → EReal) (x7 : S20.Idx → EReal)
  (x8 : S1x20.Idx → EReal) (x9 : S1.Idx → EReal)

/-- The first hidden layer: unit `j` of sample `b`. -/
theorem hidden1_eq (b : Fin 2097152) (j : Fin 50) :
    val_main_v20 (F := Ideal) x0 x1 x2 x3 x4 x5 (ix2 b j)
      = layer (fun j i => x4 (ix2 j i)) (fun j => x5 (ix1 j)) (feature x0 x1 x2 x3 b) j := by
  have el : ∀ k : Fin 8, lidx_main_v16 (ix2 b j) k = ix2 b k := fun k =>
    funext fun a => Fin.ext (by match a with | ⟨0, _⟩ => rfl | ⟨1, _⟩ => rfl)
  have er : ∀ k : Fin 8, idx_main_v15 (ridx_main_v16 (ix2 b j) k) = ix2 j k := fun k =>
    funext fun a => Fin.ext (by match a with | ⟨0, _⟩ => rfl | ⟨1, _⟩ => rfl)
  have eb : idx_main_v17 (idx_main_v18 (ix2 b j)) = ix1 j :=
    funext fun a => Fin.ext (by match a with | ⟨0, _⟩ => rfl)
  rw [val_main_v20_apply, val_main_v19_apply, val_main_v16_apply, val_main_v18_apply, val_main_v17_apply, eb,
    val_main_call0_v0_apply, val_main_call0_cst_apply]
  simp only [val_main_v15_apply, el, er, feature_eq]
  exact layer_comm (fun j i => x4 (ix2 j i)) (fun j => x5 (ix1 j)) (feature x0 x1 x2 x3 b) j

/-- The second hidden layer: unit `k` of sample `b`. -/
theorem hidden2_eq (b : Fin 2097152) (k : Fin 20) :
    val_main_v26 (F := Ideal) x0 x1 x2 x3 x4 x5 x6 x7 (ix2 b k)
      = layer (fun k j => x6 (ix2 k j)) (fun k => x7 (ix1 k))
          (layer (fun j i => x4 (ix2 j i)) (fun j => x5 (ix1 j)) (feature x0 x1 x2 x3 b)) k := by
  have el : ∀ j : Fin 50, lidx_main_v22 (ix2 b k) j = ix2 b j := fun j =>
    funext fun a => Fin.ext (by match a with | ⟨0, _⟩ => rfl | ⟨1, _⟩ => rfl)
  have er : ∀ j : Fin 50, idx_main_v21 (ridx_main_v22 (ix2 b k) j) = ix2 k j := fun j =>
    funext fun a => Fin.ext (by match a with | ⟨0, _⟩ => rfl | ⟨1, _⟩ => rfl)
  have eb : idx_main_v23 (idx_main_v24 (ix2 b k)) = ix1 k :=
    funext fun a => Fin.ext (by match a with | ⟨0, _⟩ => rfl)
  rw [val_main_v26_apply, val_main_v25_apply, val_main_v22_apply, val_main_v24_apply, val_main_v23_apply, eb,
    val_main_call1_v0_apply, val_main_call1_cst_apply]
  simp only [val_main_v21_apply, el, er, hidden1_eq]
  exact layer_comm (fun k j => x6 (ix2 k j)) (fun k => x7 (ix1 k)) _ k

/-- The reference's result array is the scorer's. -/
theorem result_eq :
    val_main_v32 (F := Ideal) x0 x1 x2 x3 x4 x5 x6 x7 x8 x9 = scores x0 x1 x2 x3 x4 x5 x6 x7 x8 x9 := by
  funext s
  obtain ⟨b, rfl⟩ : ∃ b : Fin 2097152, s = ix1 b := ⟨s 0, eq_ix1 s⟩
  have e0 : idx_main_v32 (ix1 b) = ix2 b (0 : Fin 1) :=
    funext fun a => Fin.ext (by match a with | ⟨0, _⟩ => exact Nat.div_one _ | ⟨1, _⟩ => rfl)
  have el : ∀ k : Fin 20, lidx_main_v28 (ix2 b (0 : Fin 1)) k = ix2 b k := fun k =>
    funext fun a => Fin.ext (by match a with | ⟨0, _⟩ => rfl | ⟨1, _⟩ => rfl)
  have er : ∀ k : Fin 20, idx_main_v27 (ridx_main_v28 (ix2 b (0 : Fin 1)) k) = ix2 (0 : Fin 1) k := fun k =>
    funext fun a => Fin.ext (by match a with | ⟨0, _⟩ => rfl | ⟨1, _⟩ => rfl)
  have eb : idx_main_v29 (idx_main_v30 (ix2 b (0 : Fin 1))) = ix1 (0 : Fin 1) :=
    funext fun a => Fin.ext (by match a with | ⟨0, _⟩ => rfl)
  rw [val_main_v32_apply, e0, val_main_v31_apply, val_main_v28_apply, val_main_v30_apply, val_main_v29_apply, eb]
  simp only [val_main_v27_apply, el, er, hidden2_eq]
  exact readout_comm (fun k => x8 (ix2 (0 : Fin 1) k)) (x9 (ix1 (0 : Fin 1))) _

end Cert.ReferenceIdeal.RefValue

end
-- ==== Proof.KerArrays.lean ====
/-
  What the kernel is launched on.

  Before the call the host lays the samples' feature vectors out as the COLUMNS of an `[8, 2097152]` array: it
  transposes the two tables, looks the users' and the items' columns up in them, and stacks the two `[4, 2097152]`
  results. Entry `(i, b)` of the stack is entry `i` of sample `b`'s feature vector. The weights are passed as they are
  (a change of float format is the identity on extended reals) and each bias as a one-column array.
-/
import proofs.«102440_j790273982929_2_alg».proof.Proof.Gen.KernelIdeal.Frame
import proofs.«102440_j790273982929_2_alg».proof.Proof.Spec
import Idealize.ShloMosaic.Lib.StableHlo.Run
import Idealize.ShloMosaic.Lib.Pipeline.Value

noncomputable section

namespace Cert.KernelIdeal.KerValue

open Cert.KernelIdeal Cert.KernelIdeal.Gen
open Idealize.ShloMosaic Idealize.ShloMosaic.TcCoe Idealize.SL.Sem Idealize.ShloMosaic.StableHlo
open Idealize.ShloMosaic.ValueIdx Idealize.ShloMosaic.GatherRows Cert.Scorer

/-! ## The host's terms -/

/-- The start indices of a lookup in a table of `n` rows: each stored integer, counted from the end when negative, as a
    one-column array. -/
def starts (n : BitVec 32) (a : S2097152.Idx → BitVec 32) : S2097152x1.Idx → BitVec 32 :=
  broadcastInDim S2097152x1 ![0] bcast_S2097152_S2097152x1_0
    (select (cmpi .slt a (broadcastInDim S2097152 ![] bcast_S_S2097152 (constantI S_ 32 0#32)))
      (addi a (broadcastInDim S2097152 ![] bcast_S_S2097152 (constantI S_ 32 n))) a)

/-- The feature vectors as columns. -/
def featureCols (a0 a1 : S2097152.Idx → BitVec 32) (a2 : S611x4.Idx → EReal) (a3 : S193610x4.Idx → EReal) :
    S8x2097152.Idx → EReal :=
  truncf .bf16 (concatenate S8x2097152 0
    [⟨S4x2097152, Host.gather gather_S4x611_S2097152x1_S4x2097152_0_1_n_n_1_1_41
        (transpose S4x611 [1, 0] a2 transposes_S611x4_S4x611_1_0) (starts 611#32 a0)⟩,
     ⟨S4x2097152, Host.gather gather_S4x193610_S2097152x1_S4x2097152_0_1_n_n_1_1_41
        (transpose S4x193610 [1, 0] a3 transposes_S193610x4_S4x193610_1_0) (starts 193610#32 a1)⟩]
    concatenates_S4x2097152_S4x2097152_S8x2097152_d0 : FVec Ideal S8x2097152 .f32) bitsLt_bf16_f32

/-- A splat integer constant reads its word everywhere. -/
theorem splat_apply (w : BitVec 32) (i : S2097152.Idx) :
    broadcastInDim S2097152 ![] bcast_S_S2097152 (constantI S_ 32 w) i = w :=
  broadcastInDim_apply _ bcast_S_S2097152 (constantI S_ 32 w) i ix0 (fun a => a.elim0)

/-- The start index of sample `b`. -/
theorem starts_apply (n : BitVec 32) (a : S2097152.Idx → BitVec 32) (b : Fin 2097152) :
    starts n a (ix2 b (0 : Fin 1)) = fromEnd n (a (ix1 b)) := by
  unfold starts
  rw [broadcastInDim_apply _ bcast_S2097152_S2097152x1_0 _ (ix2 b (0 : Fin 1)) (ix1 b) (fun d => by
    match d with
    | ⟨0, _⟩ =>
      show b.val = if (2097152 : Nat) = 1 then 0 else b.val
      rw [if_neg (by decide)])]
  rw [select_apply]
  show Scalar.select (IntOp.cmpi .slt (a (ix1 b)) (broadcastInDim S2097152 ![] bcast_S_S2097152 (constantI S_ 32 0#32) (ix1 b)))
    (IntOp.addi (a (ix1 b)) (broadcastInDim S2097152 ![] bcast_S_S2097152 (constantI S_ 32 n) (ix1 b))) (a (ix1 b)) = _
  rw [splat_apply, splat_apply]
  rfl

/-- Entry `(i, b)` of the stack is entry `i` of sample `b`'s feature vector. -/
theorem featureCols_apply (a0 a1 : S2097152.Idx → BitVec 32) (a2 : S611x4.Idx → EReal) (a3 : S193610x4.Idx → EReal)
    (i : Fin 8) (b : Fin 2097152) :
    featureCols a0 a1 a2 a3 (ix2 i b) = feature a0 a1 a2 a3 b i := by
  unfold featureCols feature
  rw [truncf_apply]
  by_cases h : i.val < 4
  · rw [dif_pos h]
    rw [concatenate_pair_apply_left (t := S8x2097152) (s₁ := S4x2097152) (s₂ := S4x2097152) (0 : Fin 2) _ _
      concatenates_S4x2097152_S4x2097152_S8x2097152_d0 (ix2 i b) rfl
      (ix2 (⟨i.val, h⟩ : Fin 4) b) (fun d => by match d with | ⟨0, _⟩ => rfl | ⟨1, _⟩ => rfl)]
    refine (gather_cols_apply (N := 611) (C := 4) (B := 2097152) (by decide)
      gather_S4x611_S2097152x1_S4x2097152_0_1_n_n_1_1_41_wf _ (starts 611#32 a0) ⟨i.val, h⟩ b).trans ?_
    rw [starts_apply]
    exact transpose_apply [1, 0] a2 transposes_S611x4_S4x611_1_0 _
      (ix2 (⟨rowOf 611 (a0 (ix1 b)), rowOf_lt (by decide) _⟩ : Fin 611) (⟨i.val, h⟩ : Fin 4))
      (fun d => by match d with | ⟨0, _⟩ => rfl | ⟨1, _⟩ => rfl)
  · rw [dif_neg h]
    have hi : i.val < 8 := i.isLt
    rw [concatenate_pair_apply_right (t := S8x2097152) (s₁ := S4x2097152) (s₂ := S4x2097152) (0 : Fin 2) _ _
      concatenates_S4x2097152_S4x2097152_S8x2097152_d0 (ix2 i b) rfl rfl
      (ix2 (⟨i.val - 4, by omega⟩ : Fin 4) b)
      (fun d hd => by
        match d with
        | ⟨0, _⟩ => exact absurd rfl hd
        | ⟨1, _⟩ => rfl)
      (by show i.val - 4 + 4 = i.val; omega)]
    refine (gather_cols_apply (N := 193610) (C := 4) (B := 2097152) (by decide)
      gather_S4x193610_S2097152x1_S4x2097152_0_1_n_n_1_1_41_wf _ (starts 193610#32 a1) ⟨i.val - 4, by omega⟩ b).trans ?_
    rw [starts_apply]
    exact transpose_apply [1, 0] a3 transposes_S193610x4_S4x193610_1_0 _
      (ix2 (⟨rowOf 193610 (a1 (ix1 b)), rowOf_lt (by decide) _⟩ : Fin 193610) (⟨i.val - 4, by omega⟩ : Fin 4))
      (fun d => by match d with | ⟨0, _⟩ => rfl | ⟨1, _⟩ => rfl)

/-- A bias passed as a one-column array: entry `(k, 0)` is the bias's entry `k`. -/
theorem column_apply {α : Type} {K : Nat} (x : (⟨1, ![K]⟩ : Shape).Idx → α)
    (h : (⟨1, ![K]⟩ : Shape).ShapeCasts ⟨2, ![K, 1]⟩) (k : Fin K) :
    shapeCast ⟨2, ![K, 1]⟩ x h (ix2 k (0 : Fin 1)) = x (ix1 k) :=
  shapeCast_apply x h (ix2 k (0 : Fin 1)) (ix1 k) (by
    rewrite [Shape.rowMajor_val_one, Shape.rowMajor_val_two]
    show k.val = k.val * 1 + 0
    omega)

/-! ## The arrays as the region finds them -/

variable (m : (ℓ : Loc nD τ sig) → Buf (Elt Ideal) ℓ)

set_option maxHeartbeats 2000000 in
theorem V_features (c : Dev nD) :
    (V m c main_v17 : S8x2097152.Idx → EReal)
      = featureCols (m ((c : Thread nD τ).loc main_arg0)) (m ((c : Thread nD τ).loc main_arg1))
          (m ((c : Thread nD τ).loc main_arg2)) (m ((c : Thread nD τ).loc main_arg3)) := by
  show StableHlo.after hostOps0 (fun b => m (c, b)) (Proc.devRef .tc main_v17) = _
  after_results_simp <;> rfl

set_option maxHeartbeats 1000000 in
theorem V_W1 (c : Dev nD) :
    (V m c main_v18 : S50x8.Idx → EReal) = m ((c : Thread nD τ).loc main_arg4) := by
  show StableHlo.after hostOps0 (fun b => m (c, b)) (Proc.devRef .tc main_v18) = _
  after_results_simp <;> rfl

set_option maxHeartbeats 1000000 in
theorem V_W2 (c : Dev nD) :
    (V m c main_v19 : S20x50.Idx → EReal) = m ((c : Thread nD τ).loc main_arg6) := by
  show StableHlo.after hostOps0 (fun b => m (c, b)) (Proc.devRef .tc main_v19) = _
  after_results_simp <;> rfl

set_option maxHeartbeats 1000000 in
theorem V_W3 (c : Dev nD) :
    (V m c main_v20 : S1x20.Idx → EReal) = m ((c : Thread nD τ).loc main_arg8) := by
  show StableHlo.after hostOps0 (fun b => m (c, b)) (Proc.devRef .tc main_v20) = _
  after_results_simp <;> rfl

set_option maxHeartbeats 1000000 in
theorem V_b1 (c : Dev nD) :
    (V m c main_v21 : S50x1.Idx → EReal)
      = shapeCast S50x1 (m ((c : Thread nD τ).loc main_arg5) : S50.Idx → EReal) shapeCasts_S50_S50x1 := by
  show StableHlo.after hostOps0 (fun b => m (c, b)) (Proc.devRef .tc main_v21) = _
  after_results_simp <;> rfl

set_option maxHeartbeats 1000000 in
theorem V_b2 (c : Dev nD) :
    (V m c main_v22 : S20x1.Idx → EReal)
      = shapeCast S20x1 (m ((c : Thread nD τ).loc main_arg7) : S20.Idx → EReal) shapeCasts_S20_S20x1 := by
  show StableHlo.after hostOps0 (fun b => m (c, b)) (Proc.devRef .tc main_v22) = _
  after_results_simp <;> rfl

set_option maxHeartbeats 1000000 in
theorem V_b3 (c : Dev nD) :
    (V m c main_v23 : S1x1.Idx → EReal)
      = shapeCast S1x1 (m ((c : Thread nD τ).loc main_arg9) : S1.Idx → EReal) shapeCasts_S1_S1x1 := by
  show StableHlo.after hostOps0 (fun b => m (c, b)) (Proc.devRef .tc main_v23) = _
  after_results_simp <;> rfl

end Cert.KernelIdeal.KerValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.KerPayload.lean ====
/-
  What the kernel body computes, entry by entry.

  The body holds a block of 32768 samples' feature vectors as the columns of an `[8, 32768]` array and the weights as
  they are. Each layer multiplies the weight matrix into the block, adds the bias column along the samples and floors at
  zero; the read-out does the same without the floor. A change of float format is the identity on extended reals. So
  column `q` of each stage depends on column `q` of the block alone, and entry `(0, q)` of the stored row is the score
  of the feature vector in column `q`.
-/
import proofs.«102440_j790273982929_2_alg».proof.Proof.Gen.KernelIdeal.Skeleton
import proofs.«102440_j790273982929_2_alg».proof.Proof.Spec
import proofs.«102440_j790273982929_2_alg».proof.Proof.LibDenseBlock
import Idealize.ShloMosaic.Lib.Pipeline.Value

noncomputable section

namespace Cert.KernelIdeal.KerValue

open Cert.KernelIdeal Cert.KernelIdeal.Gen
open Idealize.ShloMosaic Idealize.ShloMosaic.ValueIdx Idealize.ShloMosaic.DenseBlock Cert.Scorer

/-- A bias column spread along the samples: entry `(k, q)` is the column's entry `k`. -/
theorem bias_col_apply {α : Type} {K Q : Nat} (x : (⟨2, ![K, 1]⟩ : Shape).Idx → α)
    (h : (⟨2, ![K, 1]⟩ : Shape).Broadcasts ⟨2, ![K, Q]⟩) (k : Fin K) (q : Fin Q) :
    broadcastTo ⟨2, ![K, Q]⟩ x h (ix2 k q) = x (ix2 k (0 : Fin 1)) :=
  broadcastTo_apply x h (ix2 k q) (ix2 k (0 : Fin 1)) (fun a => by
    match a with
    | ⟨0, _⟩ =>
      show k.val = if K = 1 then 0 else k.val
      have := k.isLt
      split <;> omega
    | ⟨1, _⟩ =>
      show 0 = if (1 : Nat) = 1 then 0 else q.val
      rw [if_pos rfl])

/-! ## The body's stages -/

/-- The first hidden block: `[50, 32768]`. -/
def hidden1 (v0 : Vec Ideal S8x32768 .bf16) (v2 : Vec Ideal S50x8 .bf16) (v5 : Vec Ideal S50x1 .f32) :
    FVec Ideal S50x32768 .bf16 :=
  truncf .bf16 (maximumf (addf
      (matmul dot_S50x8_S8x32768_S50x32768_1_0_0_1_n_n none
        (shapeCast S50x8 v2 shapeCasts_S50x8_S50x8 : FVec Ideal S50x8 .bf16)
        (shapeCast S8x32768 v0 shapeCasts_S8x32768_S8x32768 : FVec Ideal S8x32768 .bf16)
        (constant S50x32768 .f32 0x00000000#32))
      (broadcastTo S50x32768 (shapeCast S50x1 v5 shapeCasts_S50x1_S50x1 : FVec Ideal S50x1 .f32)
        broadcasts_S50x1_S50x32768))
    (broadcast S50x32768 (Scalar.ofBits .f32 0x00000000#32))) bitsLt_bf16_f32

/-- The second hidden block: `[20, 32768]`, from the first. -/
def hidden2 (h1 : FVec Ideal S50x32768 .bf16) (v12 : Vec Ideal S20x50 .bf16) (v15 : Vec Ideal S20x1 .f32) :
    FVec Ideal S20x32768 .bf16 :=
  truncf .bf16 (maximumf (addf
      (matmul dot_S20x50_S50x32768_S20x32768_1_0_0_1_n_n none
        (shapeCast S20x50 v12 shapeCasts_S20x50_S20x50 : FVec Ideal S20x50 .bf16)
        h1 (constant S20x32768 .f32 0x00000000#32))
      (broadcastTo S20x32768 (shapeCast S20x1 v15 shapeCasts_S20x1_S20x1 : FVec Ideal S20x1 .f32)
        broadcasts_S20x1_S20x32768))
    (broadcast S20x32768 (Scalar.ofBits .f32 0x00000000#32))) bitsLt_bf16_f32

/-- The stored row: `[1, 32768]`, from the second hidden block. -/
def outRow (h2 : FVec Ideal S20x32768 .bf16) (v22 : Vec Ideal S1x20 .bf16) (v25 : Vec Ideal S1x1 .f32) :
    FVec Ideal S1x32768 .f32 :=
  addf
    (matmul dot_S1x20_S20x32768_S1x32768_1_0_0_1_n_n none
      (shapeCast S1x20 v22 shapeCasts_S1x20_S1x20 : FVec Ideal S1x20 .bf16)
      h2 (constant S1x32768 .f32 0x00000000#32))
    (broadcastTo S1x32768 (shapeCast S1x1 v25 shapeCasts_S1x1_S1x1 : FVec Ideal S1x1 .f32)
      broadcasts_S1x1_S1x32768)

/-- The body's stored value is the three stages composed. -/
theorem payload_eq (v0 : Vec Ideal S8x32768 .bf16) (v2 : Vec Ideal S50x8 .bf16) (v5 : Vec Ideal S50x1 .f32)
    (v12 : Vec Ideal S20x50 .bf16) (v15 : Vec Ideal S20x1 .f32) (v22 : Vec Ideal S1x20 .bf16)
    (v25 : Vec Ideal S1x1 .f32) :
    k0_pay1 (F := Ideal) v0 v2 v5 v12 v15 v22 v25 = outRow (hidden2 (hidden1 v0 v2 v5) v12 v15) v22 v25 := rfl

/-! ## Each stage at an entry -/

theorem hidden1_apply (v0 : Vec Ideal S8x32768 .bf16) (v2 : Vec Ideal S50x8 .bf16) (v5 : Vec Ideal S50x1 .f32)
    (j : Fin 50) (q : Fin 32768) :
    hidden1 v0 v2 v5 (ix2 j q)
      = layer (fun j i => v2 (ix2 j i)) (fun j => v5 (ix2 j (0 : Fin 1))) (fun i => v0 (ix2 i q)) j := by
  unfold hidden1 layer
  rw [truncf_apply, maximumf_apply, addf_apply, broadcast_apply, shapeCast_self, shapeCast_self, shapeCast_self,
    bias_col_apply]
  have hm : matmul (F := Ideal) (φ₁ := .bf16) (φ₂ := .bf16) dot_S50x8_S8x32768_S50x32768_1_0_0_1_n_n none (v2 : FVec Ideal S50x8 .bf16)
      (v0 : FVec Ideal S8x32768 .bf16) (constant S50x32768 .f32 0x00000000#32) (ix2 j q)
      = ∑ i : Fin 8, v2 (ix2 j i) * v0 (ix2 i q) :=
    matmul_zero_apply (φ₁ := .bf16) (φ₂ := .bf16) (K := 50) (N := 8) (Q := 32768) dot_S50x8_S8x32768_S50x32768_1_0_0_1_n_n_wf
      (v2 : FVec Ideal S50x8 .bf16) (v0 : FVec Ideal S8x32768 .bf16) j q
  rw [hm]
  rfl

theorem hidden2_apply (h1 : FVec Ideal S50x32768 .bf16) (v12 : Vec Ideal S20x50 .bf16) (v15 : Vec Ideal S20x1 .f32)
    (k : Fin 20) (q : Fin 32768) :
    hidden2 h1 v12 v15 (ix2 k q)
      = layer (fun k j => v12 (ix2 k j)) (fun k => v15 (ix2 k (0 : Fin 1))) (fun j => h1 (ix2 j q)) k := by
  unfold hidden2 layer
  rw [truncf_apply, maximumf_apply, addf_apply, broadcast_apply, shapeCast_self, shapeCast_self, bias_col_apply]
  have hm : matmul (F := Ideal) (φ₁ := .bf16) (φ₂ := .bf16) dot_S20x50_S50x32768_S20x32768_1_0_0_1_n_n none (v12 : FVec Ideal S20x50 .bf16) h1
      (constant S20x32768 .f32 0x00000000#32) (ix2 k q)
      = ∑ j : Fin 50, v12 (ix2 k j) * h1 (ix2 j q) :=
    matmul_zero_apply (φ₁ := .bf16) (φ₂ := .bf16) (K := 20) (N := 50) (Q := 32768) dot_S20x50_S50x32768_S20x32768_1_0_0_1_n_n_wf
      (v12 : FVec Ideal S20x50 .bf16) h1 k q
  rw [hm]
  rfl

theorem outRow_apply (h2 : FVec Ideal S20x32768 .bf16) (v22 : Vec Ideal S1x20 .bf16) (v25 : Vec Ideal S1x1 .f32)
    (q : Fin 32768) :
    outRow h2 v22 v25 (ix2 (0 : Fin 1) q)
      = readout (fun k => v22 (ix2 (0 : Fin 1) k)) (v25 (ix2 (0 : Fin 1) (0 : Fin 1))) (fun k => h2 (ix2 k q)) := by
  unfold outRow readout
  rw [addf_apply, shapeCast_self, shapeCast_self, bias_col_apply]
  have hm : matmul (F := Ideal) (φ₁ := .bf16) (φ₂ := .bf16) dot_S1x20_S20x32768_S1x32768_1_0_0_1_n_n none (v22 : FVec Ideal S1x20 .bf16) h2
      (constant S1x32768 .f32 0x00000000#32) (ix2 (0 : Fin 1) q)
      = ∑ k : Fin 20, v22 (ix2 (0 : Fin 1) k) * h2 (ix2 k q) :=
    matmul_zero_apply (φ₁ := .bf16) (φ₂ := .bf16) (K := 1) (N := 20) (Q := 32768) dot_S1x20_S20x32768_S1x32768_1_0_0_1_n_n_wf
      (v22 : FVec Ideal S1x20 .bf16) h2 (0 : Fin 1) q
  rw [hm]

/-- Entry `(0, q)` of the stored row is the score of the feature vector in column `q` of the block. -/
theorem payload_apply (v0 : Vec Ideal S8x32768 .bf16) (v2 : Vec Ideal S50x8 .bf16) (v5 : Vec Ideal S50x1 .f32)
    (v12 : Vec Ideal S20x50 .bf16) (v15 : Vec Ideal S20x1 .f32) (v22 : Vec Ideal S1x20 .bf16)
    (v25 : Vec Ideal S1x1 .f32) (q : Fin 32768) :
    k0_pay1 (F := Ideal) v0 v2 v5 v12 v15 v22 v25 (ix2 (0 : Fin 1) q)
      = score (fun j i => v2 (ix2 j i)) (fun j => v5 (ix2 j (0 : Fin 1))) (fun k j => v12 (ix2 k j))
          (fun k => v15 (ix2 k (0 : Fin 1))) (fun k => v22 (ix2 (0 : Fin 1) k)) (v25 (ix2 (0 : Fin 1) (0 : Fin 1)))
          (fun i => v0 (ix2 i q)) := by
  rw [payload_eq, outRow_apply]
  unfold score
  congr 1
  funext k
  rw [hidden2_apply]
  congr 1
  funext j
  exact hidden1_apply v0 v2 v5 j q

end Cert.KernelIdeal.KerValue

end
-- ==== Proof.KerBlocks.lean ====
/-
  From the blocks to the whole row of scores.

  The call runs over 64 grid points. At point `t` the body sees columns `32768 t … 32768 t + 32767` of the feature
  array and all of every weight and bias, and writes columns `32768 t …` of the `[1, 2097152]` result. By the body's
  entry-by-entry reading each written entry is the score of the sample whose column it is, so every point writes a block
  of ONE array, the row of all samples' scores; the 64 blocks tile the row, so the row is what the result array holds
  after the call.
-/
import proofs.«102440_j790273982929_2_alg».proof.Proof.KerArrays
import proofs.«102440_j790273982929_2_alg».proof.Proof.KerPayload

noncomputable section

namespace Cert.KernelIdeal.KerValue

open Cert.KernelIdeal Cert.KernelIdeal.Gen
open Idealize.ShloMosaic Idealize.ShloMosaic.TcCoe Idealize.SL.Sem
open Idealize.ShloMosaic.ValueIdx Cert.Scorer
open Idealize.ShloMosaic.Pipeline (Dat)

variable (m : (ℓ : Loc nD τ sig) → Buf (Elt Ideal) ℓ)

/-- The row of all samples' scores, as the `[1, 2097152]` array the call fills. -/
def scoreRow (c : Dev nD) : S1x2097152.Idx → EReal := fun y =>
  scores (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9)) (ix1 (y 1))

theorem zeros : (![0, 0] : Fin 2 → Nat) = fun _ => 0 := funext fun a => by fin_cases a <;> rfl

/-- Which block of its array each window shows at point `t`: the features and the result move along the samples
    with `t`, everything else is shown whole. Decided over the 64 points. -/
theorem block_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-! ## Each window's block, read at an entry -/

/-- Column `q` of the feature block at point `t` is the feature vector of sample `32768 t + q`. -/
theorem features_block (c : Dev nD) (t : Fin cfg0.N) (i : Fin 8) (q : Fin 32768) (b : Fin 2097152)
    (hb : b.val = t.val * 32768 + q.val) :
    (iblk m c 0 t : Vec Ideal S8x32768 .bf16) (ix2 i q)
      = feature (m ((c : Thread nD τ).loc main_arg0)) (m ((c : Thread nD τ).loc main_arg1))
          (m ((c : Thread nD τ).loc main_arg2)) (m ((c : Thread nD τ).loc main_arg3)) b i := by
  obtain ⟨e0, e1, -⟩ := block_index t
  unfold iblk
  rw [View.read_apply]
  show V m c main_v17 _ = _
  rw [V_features]
  refine (congrArg _ ?_).trans (featureCols_apply _ _ _ _ i b)
  funext a
  apply Fin.ext
  match a with
  | ⟨0, _⟩ => show win0_0.index t (0 : Fin 2) * 8 + 1 * i.val = i.val; rw [e0]; omega
  | ⟨1, _⟩ => show win0_0.index t (1 : Fin 2) * 32768 + 1 * q.val = b.val; rw [e1, hb]; omega

theorem W1_block (c : Dev nD) (t : Fin cfg0.N) (j : Fin 50) (i : Fin 8) :
    (iblk m c 1 t : Vec Ideal S50x8 .bf16) (ix2 j i) = m ((c : Thread nD τ).loc main_arg4) (ix2 j i) := by
  obtain ⟨-, -, e0, e1, -⟩ := block_index t
  unfold iblk
  rw [View.read_apply]
  show V m c main_v18 _ = _
  rw [V_W1]
  refine congrArg _ ?_
  funext a
  apply Fin.ext
  match a with
  | ⟨0, _⟩ => show win0_1.index t (0 : Fin 2) * 50 + 1 * j.val = j.val; rw [e0]; omega
  | ⟨1, _⟩ => show win0_1.index t (1 : Fin 2) * 8 + 1 * i.val = i.val; rw [e1]; omega

theorem b1_block (c : Dev nD) (t : Fin cfg0.N) (j : Fin 50) :
    (iblk m c 2 t : Vec Ideal S50x1 .f32) (ix2 j (0 : Fin 1)) = m ((c : Thread nD τ).loc main_arg5) (ix1 j) := by
  obtain ⟨-, -, -, -, e0, e1, -⟩ := block_index t
  unfold iblk
  rw [View.read_apply]
  show V m c main_v21 _ = _
  rw [V_b1]
  refine (congrArg _ ?_).trans (column_apply _ shapeCasts_S50_S50x1 j)
  funext a
  apply Fin.ext
  match a with
  | ⟨0, _⟩ => show win0_2.index t (0 : Fin 2) * 50 + 1 * j.val = j.val; rw [e0]; omega
  | ⟨1, _⟩ => show win0_2.index t (1 : Fin 2) * 1 + 1 * 0 = 0; rw [e1]

theorem W2_block (c : Dev nD) (t : Fin cfg0.N) (k : Fin 20) (j : Fin 50) :
    (iblk m c 3 t : Vec Ideal S20x50 .bf16) (ix2 k j) = m ((c : Thread nD τ).loc main_arg6) (ix2 k j) := by
  obtain ⟨-, -, -, -, -, -, e0, e1, -⟩ := block_index t
  unfold iblk
  rw [View.read_apply]
  show V m c main_v19 _ = _
  rw [V_W2]
  refine congrArg _ ?_
  funext a
  apply Fin.ext
  match a with
  | ⟨0, _⟩ => show win0_3.index t (0 : Fin 2) * 20 + 1 * k.val = k.val; rw [e0]; omega
  | ⟨1, _⟩ => show win0_3.index t (1 : Fin 2) * 50 + 1 * j.val = j.val; rw [e1]; omega

theorem b2_block (c : Dev nD) (t : Fin cfg0.N) (k : Fin 20) :
    (iblk m c 4 t : Vec Ideal S20x1 .f32) (ix2 k (0 : Fin 1)) = m ((c : Thread nD τ).loc main_arg7) (ix1 k) := by
  obtain ⟨-, -, -, -, -, -, -, -, e0, e1, -⟩ := block_index t
  unfold iblk
  rw [View.read_apply]
  show V m c main_v22 _ = _
  rw [V_b2]
  refine (congrArg _ ?_).trans (column_apply _ shapeCasts_S20_S20x1 k)
  funext a
  apply Fin.ext
  match a with
  | ⟨0, _⟩ => show win0_4.index t (0 : Fin 2) * 20 + 1 * k.val = k.val; rw [e0]; omega
  | ⟨1, _⟩ => show win0_4.index t (1 : Fin 2) * 1 + 1 * 0 = 0; rw [e1]

theorem W3_block (c : Dev nD) (t : Fin cfg0.N) (k : Fin 20) :
    (iblk m c 5 t : Vec Ideal S1x20 .bf16) (ix2 (0 : Fin 1) k) = m ((c : Thread nD τ).loc main_arg8) (ix2 (0 : Fin 1) k) := by
  obtain ⟨-, -, -, -, -, -, -, -, -, -, e0, e1, -⟩ := block_index t
  unfold iblk
  rw [View.read_apply]
  show V m c main_v20 _ = _
  rw [V_W3]
  refine congrArg _ ?_
  funext a
  apply Fin.ext
  match a with
  | ⟨0, _⟩ => show win0_5.index t (0 : Fin 2) * 1 + 1 * 0 = 0; rw [e0]
  | ⟨1, _⟩ => show win0_5.index t (1 : Fin 2) * 20 + 1 * k.val = k.val; rw [e1]; omega

theorem b3_block (c : Dev nD) (t : Fin cfg0.N) :
    (iblk m c 6 t : Vec Ideal S1x1 .f32) (ix2 (0 : Fin 1) (0 : Fin 1))
      = m ((c : Thread nD τ).loc main_arg9) (ix1 (0 : Fin 1)) := by
  obtain ⟨-, -, -, -, -, -, -, -, -, -, -, -, e0, e1, -⟩ := block_index t
  unfold iblk
  rw [View.read_apply]
  show V m c main_v23 _ = _
  rw [V_b3]
  refine (congrArg _ ?_).trans (column_apply _ shapeCasts_S1_S1x1 (0 : Fin 1))
  funext a
  apply Fin.ext
  match a with
  | ⟨0, _⟩ => show win0_6.index t (0 : Fin 2) * 1 + 1 * 0 = 0; rw [e0]
  | ⟨1, _⟩ => show win0_6.index t (1 : Fin 2) * 1 + 1 * 0 = 0; rw [e1]

/-! ## What a point writes back -/

/-- The score depends on its seven arguments entry by entry. -/
theorem score_congr {W1 W1' : Fin 50 → Fin 8 → EReal} {β1 β1' : Fin 50 → EReal} {W2 W2' : Fin 20 → Fin 50 → EReal}
    {β2 β2' : Fin 20 → EReal} {W3 W3' : Fin 20 → EReal} {β3 β3' : EReal} {x x' : Fin 8 → EReal}
    (h1 : ∀ j i, W1 j i = W1' j i) (hb1 : ∀ j, β1 j = β1' j) (h2 : ∀ k j, W2 k j = W2' k j) (hb2 : ∀ k, β2 k = β2' k)
    (h3 : ∀ k, W3 k = W3' k) (hb3 : β3 = β3') (hx : ∀ i, x i = x' i) :
    score W1 β1 W2 β2 W3 β3 x = score W1' β1' W2' β2' W3' β3' x' := by
  obtain rfl : W1 = W1' := funext fun j => funext fun i => h1 j i
  obtain rfl : β1 = β1' := funext hb1
  obtain rfl : W2 = W2' := funext fun k => funext fun j => h2 k j
  obtain rfl : β2 = β2' := funext hb2
  obtain rfl : W3 = W3' := funext h3
  obtain rfl : x = x' := funext hx
  rw [hb3]

/-- The body's stored row at any entry: the score of the feature vector in that entry's column. -/
theorem payload_at (v0 : Vec Ideal S8x32768 .bf16) (v2 : Vec Ideal S50x8 .bf16) (v5 : Vec Ideal S50x1 .f32)
    (v12 : Vec Ideal S20x50 .bf16) (v15 : Vec Ideal S20x1 .f32) (v22 : Vec Ideal S1x20 .bf16)
    (v25 : Vec Ideal S1x1 .f32) (y : S1x32768.Idx) :
    k0_pay1 (F := Ideal) v0 v2 v5 v12 v15 v22 v25 y
      = score (fun j i => v2 (ix2 j i)) (fun j => v5 (ix2 j (0 : Fin 1))) (fun k j => v12 (ix2 k j))
          (fun k => v15 (ix2 k (0 : Fin 1))) (fun k => v22 (ix2 (0 : Fin 1) k)) (v25 (ix2 (0 : Fin 1) (0 : Fin 1)))
          (fun i => v0 (ix2 i (y 1))) := by
  obtain ⟨p, q, rfl⟩ : ∃ (p : Fin 1) (q : Fin 32768), y = ix2 p q := ⟨y 0, y 1, eq_ix2 y⟩
  obtain rfl : p = 0 := Subsingleton.elim _ _
  exact payload_apply v0 v2 v5 v12 v15 v22 v25 q

/-- WHAT POINT `t` WRITES BACK is block `t` of the row of scores. -/
theorem flushed_eq (c : Dev nD) (t : Fin cfg0.N) :
    (dats m 0 c).flushed 7 t = ((cfg0.win 7).blk t).view.read (Elt Ideal) (scoreRow m c) := by
  show (cfg0.win 7).cut (grid0.coords t) ((dats m 0 c).after 7 t) = _
  rw [after0_7]
  unfold out0_7
  rw [View.canon_unit_zero zeros]
  simp only [View.ld_unit_zero (S := S8x32768) zeros, View.ld_unit_zero (S := S50x8) zeros,
    View.ld_unit_zero (S := S50x1) zeros, View.ld_unit_zero (S := S20x50) zeros, View.ld_unit_zero (S := S20x1) zeros,
    View.ld_unit_zero (S := S1x20) zeros, View.ld_unit_zero (S := S1x1) zeros]
  funext y
  obtain ⟨-, -, -, -, -, -, -, -, -, -, -, -, -, -, e70, e71⟩ := block_index t
  refine (payload_at (iblk m c 0 t) (iblk m c 1 t) (iblk m c 2 t) (iblk m c 3 t) (iblk m c 4 t) (iblk m c 5 t)
    (iblk m c 6 t) y).trans ?_
  show _ = scoreRow m c (((cfg0.win 7).blk t).view.emb y)
  unfold scoreRow scores
  exact score_congr (fun j i => W1_block m c t j i) (fun j => b1_block m c t j) (fun k j => W2_block m c t k j)
    (fun k => b2_block m c t k) (fun k => W3_block m c t k) (b3_block m c t)
    (fun i => features_block m c t i (y 1) _ (by
      show win0_7.index t (1 : Fin 2) * 32768 + 1 * (y 1).val = t.val * 32768 + (y 1).val
      rw [e71]; omega))

/-! ## The array after the call -/

/-- An entry of the result array is in point `t`'s block iff each coordinate is in the block's range. -/
theorem mem_block (t : Fin cfg0.N) (i : S1x2097152.Idx) :
    i ∈ ((cfg0.win 7).blk t).view.set ↔ ∀ a : Fin 2, win0_7.index t a * S1x32768.size a ≤ (i a).val
      ∧ (i a).val < win0_7.index t a * S1x32768.size a + S1x32768.size a := by
  show i ∈ ((View.whole main_v24).slice (win0_7.rect t)).set ↔ _
  rw [View.set_slice_whole, Rect.mem_set_unit]
  exact Iff.rfl

/-- Every entry of the result array is in the block of the point its column falls to. -/
theorem covered (i : S1x2097152.Idx) :
    ∃ t : Fin cfg0.N, (cfg0.win 7).flush t = true ∧ i ∈ ((cfg0.win 7).blk t).view.set := by
  have hi0 : (i 0).val < 1 := (i 0).isLt
  have hi1 : (i 1).val < 2097152 := (i 1).isLt
  have hN : cfg0.N = 64 := N_0
  have hlt : (i 1).val / 32768 < cfg0.N := by rw [hN]; omega
  obtain ⟨-, -, -, -, -, -, -, -, -, -, -, -, -, -, e70, e71⟩ := block_index ⟨(i 1).val / 32768, hlt⟩
  refine ⟨⟨(i 1).val / 32768, hlt⟩, flush0_7 _, ?_⟩
  rw [mem_block]
  intro a
  match a with
  | ⟨0, _⟩ =>
    show win0_7.index ⟨(i 1).val / 32768, hlt⟩ (0 : Fin 2) * 1 ≤ (i 0).val
      ∧ (i 0).val < win0_7.index ⟨(i 1).val / 32768, hlt⟩ (0 : Fin 2) * 1 + 1
    rw [e70]; omega
  | ⟨1, _⟩ =>
    show win0_7.index ⟨(i 1).val / 32768, hlt⟩ (1 : Fin 2) * 32768 ≤ (i 1).val
      ∧ (i 1).val < win0_7.index ⟨(i 1).val / 32768, hlt⟩ (1 : Fin 2) * 32768 + 32768
    rw [e71]
    show (i 1).val / 32768 * 32768 ≤ (i 1).val ∧ (i 1).val < (i 1).val / 32768 * 32768 + 32768
    omega

/-- The result array after the call is the row of scores. -/
theorem final_scores (c : Dev nD) : (dats m 0 c).arrAt 7 cfg0.N = scoreRow m c :=
  (dats m 0 c).arrAt_eq_of_cover 7 (scoreRow m c) (fun t _ => flushed_eq m c t) (covered)

end Cert.KernelIdeal.KerValue

end
-- ==== Proof.KerValue.lean ====
/-
  The kernel program's result.

  After the call the host reshapes the `[1, 2097152]` row into the `[2097152]` result, entry for entry. The call leaves
  the row of all samples' scores, so the program ends with every sample's score in its result, and its ten argument
  arrays as they were.
-/
import proofs.«102440_j790273982929_2_alg».proof.Proof.KerBlocks

noncomputable section

namespace Cert.KernelIdeal.KerValue

open Cert.KernelIdeal Cert.KernelIdeal.Gen
open Idealize.ShloMosaic Idealize.ShloMosaic.TcCoe Idealize.SL.Sem Idealize.ShloMosaic.StableHlo
open Idealize.ShloMosaic.ValueIdx Cert.Scorer
open Idealize.ShloMosaic.Pipeline (Dat)

variable (m : (ℓ : Loc nD τ sig) → Buf (Elt Ideal) ℓ) (ρ : Dev nD → PrngReg)

/-- Every sample's score, from the launch contents of the ten arguments on core `c`. -/
abbrev result (c : Dev nD) : S2097152.Idx → EReal :=
  scores (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

/-- The row of scores reshaped to one axis is the array of scores. -/
theorem reshape_row (c : Dev nD) :
    shapeCast S2097152 (scoreRow m c) shapeCasts_S1x2097152_S2097152 = result m c := by
  funext s
  rw [shapeCast_apply (scoreRow m c) shapeCasts_S1x2097152_S2097152 s (ix2 (0 : Fin 1) (s 0)) (by
    rewrite [Shape.rowMajor_val_two, Shape.rowMajor_val_one]
    show 0 * 2097152 + (s 0).val = (s 0).val
    omega)]
  unfold scoreRow
  exact congrArg _ (eq_ix1 s).symm

/-- What the program's result buffer holds after the host lines that follow the call. -/
theorem tail_value (c : Dev nD) :
    Pipeline.afterTail₀ cfgs (dats m) 0 (V0 m) [hostOps1] c main_v25 = result m c := by
  unfold Pipeline.afterTail₀
  show StableHlo.after hostOps1 _ (Proc.devRef .tc main_v25) = _
  after_results
  rw [show Pipeline.withArrays (cfgs 0).spec c (V0 m c) (fun w => (dats m 0 c).arrAt w (cfgs 0).N)
      (Proc.devRef .tc main_v24) = scoreRow m c from
    (Pipeline.withArrays_arr spec0 launch0.win.arr_inj c _ _ 7).trans (final_scores m c)]
  exact reshape_row m c

/-- THE RUN, READ: every weakly fair execution of the kernel program ends with each sample's score in the result
    and the arguments unchanged. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      ((h c).2 main_v25 (Pipeline.mem_restRefs_of main_v25 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KerValue

end
-- ==== Proof.lean ====
/-
  A recommender's scoring network, laid out two ways.

  Each of 2097152 samples names a user and an item by integers. The score of a sample is a three-layer perceptron
  (8 → 50 → 20 → 1, rectified between layers) of the eight numbers made of the user's row of a 611-row table followed by
  the item's row of a 193610-row table; an integer names a row the way array indexing reads it (a negative one counts
  once from the end, and the result is clamped into the table), so every integer names one.

  The reference keeps samples as ROWS: it looks the rows up, joins them side by side and multiplies by the transposed
  weights, `x · Wᵀ + b`. The kernel program keeps samples as COLUMNS: the host looks the same rows up in the transposed
  tables and stacks them, and the kernel multiplies the weights into blocks of 32768 columns, `W · x + b`, the bias
  spread along the columns; the host then reshapes the one-row result. Over the extended reals a change of float format
  is the identity, a matrix product into a zero accumulator is the plain sum of products, and the two programs differ
  only in which way round each product inside each sum is written. Both therefore compute `Cert.Scorer.scores` of the
  ten inputs (Proof/Spec.lean), entry by entry; nothing is asked of the inputs, since no sum is split or regrouped.

  The kernel's idealization rewrote nothing, so there is nothing to preserve; the kernel programs' frames are the
  generated ones, and the reference's frame is its generated run with the result dropped.
-/
import proofs.«102440_j790273982929_2_alg».proof.Defs
import proofs.«102440_j790273982929_2_alg».proof.Proof.Gen.Kernel
import proofs.«102440_j790273982929_2_alg».proof.Proof.Gen.Kernel.Frame
import proofs.«102440_j790273982929_2_alg».proof.Proof.Gen.KernelIdeal
import proofs.«102440_j790273982929_2_alg».proof.Proof.Gen.KernelIdeal.Frame
import proofs.«102440_j790273982929_2_alg».proof.Proof.Gen.ReferenceIdeal
import proofs.«102440_j790273982929_2_alg».proof.Proof.Gen.Pre_finite_inputs
import proofs.«102440_j790273982929_2_alg».proof.Proof.Gen.ReferenceIdeal.Run
import proofs.«102440_j790273982929_2_alg».proof.Proof.Gen.ReferenceIdeal.Read
import proofs.«102440_j790273982929_2_alg».proof.Proof.RefValue
import proofs.«102440_j790273982929_2_alg».proof.Proof.KerValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the ten arguments both idealized programs end with every sample's score in their
    result: the kernel program by its run read through the blocks, the reference by its run read stage by stage. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9]
  exact (Cert.ReferenceIdeal.Read.val_main_v32_eq _ _ _ _ _ _ _ _ _ _).trans
    (Cert.ReferenceIdeal.RefValue.result_eq _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
